-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x2048 : Shape := ⟨2, ![8, 2048]⟩
abbrev S8x512x1024 : Shape := ⟨3, ![8, 512, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x512x1024 : S_.BroadcastsInDim S8x512x1024 (![] : Fin 0 → Fin S8x512x1024.rank)
  reducesTo_S8x512x1024_S_d0_1_2 : S8x512x1024.ReducesTo [0, 1, 2] S_

variable [Facts]

def fn {F : FTy → Type} [FloatOps F] (main_arg0 : FVec F S8x2048x1024 .f32) (main_arg1 : IVec S8x2048 32) (main_arg2 : FVec F S8x512x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x512x1024 .f32 := Host.absf main_arg2
  let main_cst_0 : FVec F S_ .f32 := constant S_ .f32 0x7F800000#32
  let main_v5 : FVec F S8x512x1024 .f32 := broadcastInDim S8x512x1024 ![] bcast_S_S8x512x1024 main_cst_0
  let main_v6 : IVec S8x512x1024 1 := cmpf .olt main_v4 main_v5
  let main_c_1 : IVec S_ 1 := constantI S_ 1 1#1
  let main_v7 : IVec S_ 1 := (fun x v => Host.reduce IntOp.andi x v reducesTo_S8x512x1024_S_d0_1_2 h_S_) main_v6 main_c_1
  let main_v8 : IVec S_ 1 := andi main_v3 main_v7
  main_v8
-- ==== Kernel.lean ====
abbrev S8x2048x1024 : Shape := ⟨3, ![8, 2048, 1024]⟩
abbrev S8x2048 : Shape := ⟨2, ![8, 2048]⟩
abbrev S8x512x1024 : Shape := ⟨3, ![8, 512, 1024]⟩
abbrev S_ : Shape := ⟨0, ![]⟩
abbrev S8x1x2048 : Shape := ⟨3, ![8, 1, 2048]⟩
abbrev S8x2048x512 : Shape := ⟨3, ![8, 2048, 512]⟩
abbrev S1x2048x1024 : Shape := ⟨3, ![1, 2048, 1024]⟩
abbrev S1x256x1024 : Shape := ⟨3, ![1, 256, 1024]⟩
abbrev S1x1x2048 : Shape := ⟨3, ![1, 1, 2048]⟩
abbrev S1x2048x256 : Shape := ⟨3, ![1, 2048, 256]⟩
abbrev S2048x1024 : Shape := ⟨2, ![2048, 1024]⟩
abbrev S256x1024 : Shape := ⟨2, ![256, 1024]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048x256 : Shape := ⟨2, ![2048, 256]⟩

abbrev nBuf : Space → Nat
  | .hbm => 13
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S8x2048, .i32⟩
  | .hbm, ⟨2, _⟩ => ⟨S8x512x1024, .f32⟩
  | .hbm, ⟨3, _⟩ => ⟨S8x2048, .f32⟩
  | .hbm, ⟨4, _⟩ => ⟨S_, .f32⟩
  | .hbm, ⟨5, _⟩ => ⟨S8x2048, .f32⟩
  | .hbm, ⟨6, _⟩ => ⟨S8x2048, .f32⟩
  | .hbm, ⟨7, _⟩ => ⟨S8x1x2048, .f32⟩
  | .hbm, ⟨8, _⟩ => ⟨S_, .f32⟩
  | .hbm, ⟨9, _⟩ => ⟨S8x1x2048, .f32⟩
  | .hbm, ⟨10, _⟩ => ⟨S8x1x2048, .f32⟩
  | .hbm, ⟨11, _⟩ => ⟨S8x512x1024, .f32⟩
  | .hbm, ⟨12, _⟩ => ⟨S8x2048x512, .f32⟩
  | .local _ .vmem, ⟨0, _⟩ => ⟨S1x2048x1024, .f32⟩
  | .local _ .vmem, ⟨1, _⟩ => ⟨S1x2048x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x2048, .f32⟩
  | .local _ .vmem, ⟨5, _⟩ => ⟨S1x1x2048, .f32⟩
  | .local _ .vmem, ⟨6, _⟩ => ⟨S1x256x1024, .f32⟩
  | .local _ .vmem, ⟨7, _⟩ => ⟨S1x256x1024, .f32⟩
  | .local _ .vmem, ⟨8, _⟩ => ⟨S1x2048x256, .f32⟩
  | .local _ .vmem, ⟨9, _⟩ => ⟨S1x2048x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S_S8x1x2048 : S_.BroadcastsInDim S8x1x2048 (![] : Fin 0 → Fin S8x1x2048.rank)
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S256x2048 : S1x2048.Broadcasts S256x2048
  reduces_S256x2048_S256 : S256x2048.Reduces [1] S256
  shapeCasts_S256_S256x1 : S256.ShapeCasts S256x1
  broadcasts_S256x1_S256x2048 : S256x1.Broadcasts S256x2048
  shapeCasts_S256x1024_S1x256x1024 : S256x1024.ShapeCasts S1x256x1024
  transposes_S256x2048_p1_0_S2048x256 : S256x2048.Transposes [1, 0] S2048x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x1024.size a
  hwx0_0 : ∀ i : grid0.Coords, EltTy.bits .f32 = 32 ∨ (Rect.block (s := S8x2048x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S8x512x1024.size a
  hwx0_1 : ∀ i : grid0.Coords, EltTy.bits .f32 = 32 ∨ (Rect.block (s := S8x512x1024) S1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S8x1x2048.size a
  hwx0_2 : ∀ i : grid0.Coords, EltTy.bits .f32 = 32 ∨ (Rect.block (s := S8x1x2048) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S8x512x1024.size a
  hwx0_3 : ∀ i : grid0.Coords, EltTy.bits .f32 = 32 ∨ (Rect.block (s := S8x512x1024) S1x256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x256.size a ≤ S8x2048x512.size a
  hwx0_4 : ∀ i : grid0.Coords, EltTy.bits .f32 = 32 ∨ (Rect.block (s := S8x2048x512) S1x2048x256.size (cc0_transform_4 i) (hinb0_4 i)).WholeWords (EltTy.packing .f32)

variable [Facts₀]

def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S1x256x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S1x2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S8x2048 : Shape := ⟨2, ![8, 2048]⟩
abbrev S8x512x1024 : Shape := ⟨3, ![8, 512, 1024]⟩
abbrev S8x2048x512 : Shape := ⟨3, ![8, 2048, 512]⟩
abbrev S_ : Shape := ⟨0, ![]⟩
abbrev S8x2048x1 : Shape := ⟨3, ![8, 2048, 1]⟩
abbrev S8x512 : Shape := ⟨2, ![8, 512]⟩
abbrev S8x1x512 : Shape := ⟨3, ![8, 1, 512]⟩

abbrev nBuf : Space → Nat
  | .hbm => 29
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048, .i32⟩
  | .hbm, ⟨2, _⟩ => ⟨S8x512x1024, .f32⟩
  | .hbm, ⟨3, _⟩ => ⟨S8x2048, .f32⟩
  | .hbm, ⟨4, _⟩ => ⟨S8x2048x512, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S8x2048x512, .f32⟩
  | .hbm, ⟨13, _⟩ => ⟨S8x2048x512, .f32⟩
  | .hbm, ⟨14, _⟩ => ⟨S_, .f32⟩
  | .hbm, ⟨15, _⟩ => ⟨S8x512, .f32⟩
  | .hbm, ⟨16, _⟩ => ⟨S_, .f32⟩
  | .hbm, ⟨17, _⟩ => ⟨S8x512, .f32⟩
  | .hbm, ⟨18, _⟩ => ⟨S8x512, .f32⟩
  | .hbm, ⟨19, _⟩ => ⟨S8x1x512, .f32⟩
  | .hbm, ⟨20, _⟩ => ⟨S8x2048x512, .f32⟩
  | .hbm, ⟨21, _⟩ => ⟨S8x2048x512, .f32⟩
  | .hbm, ⟨22, _⟩ => ⟨S8x2048x512, .f32⟩
  | .hbm, ⟨23, _⟩ => ⟨S_, .f32⟩
  | .hbm, ⟨24, _⟩ => ⟨S8x512, .f32⟩
  | .hbm, ⟨25, _⟩ => ⟨S8x1x512, .f32⟩
  | .hbm, ⟨26, _⟩ => ⟨S8x2048x512, .f32⟩
  | .hbm, ⟨27, _⟩ => ⟨S8x2048x512, .f32⟩
  | .hbm, ⟨28, _⟩ => ⟨S8x512x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x512_0_1_2 : S8x2048x1.BroadcastsInDim S8x2048x512 (![0, 1, 2] : Fin 3 → Fin S8x2048x512.rank)
  reducesTo_S8x2048x512_S8x512_d1 : S8x2048x512.ReducesTo [1] S8x512
  h_S_ : 0 < S_.numel
  bcast_S_S8x512 : S_.BroadcastsInDim S8x512 (![] : Fin 0 → Fin S8x512.rank)
  bcast_S8x512_S8x1x512_0_2 : S8x512.BroadcastsInDim S8x1x512 (![0, 2] : Fin 2 → Fin S8x1x512.rank)
  bcast_S8x1x512_S8x2048x512_0_1_2 : S8x1x512.BroadcastsInDim S8x2048x512 (![0, 1, 2] : Fin 3 → Fin S8x2048x512.rank)
  dot_S8x2048x1024_S8x512x1024_S8x2048x512_2_2_1_1_0_0_wf : DotDims.WF S8x2048x1024 S8x512x1024 S8x2048x512 [2] [2] [1] [1] [0] [0]
  dot_S8x2048x512_S8x2048x1024_S8x512x1024_1_1_2_2_0_0_wf : DotDims.WF S8x2048x512 S8x2048x1024 S8x512x1024 [1] [1] [2] [2] [0] [0]

variable [Facts₀]

def dot_S8x2048x1024_S8x512x1024_S8x2048x512_2_2_1_1_0_0 : DotDims S8x2048x1024 S8x512x1024 S8x2048x512 where
  lhsContracting := [2]
  rhsContracting := [2]
  lhsNonContracting := [1]
  rhsNonContracting := [1]
  lhsBatch := [0]
  rhsBatch := [0]
  wf := dot_S8x2048x1024_S8x512x1024_S8x2048x512_2_2_1_1_0_0_wf
def dot_S8x2048x512_S8x2048x1024_S8x512x1024_1_1_2_2_0_0 : DotDims S8x2048x512 S8x2048x1024 S8x512x1024 where
  lhsContracting := [1]
  rhsContracting := [1]
  lhsNonContracting := [2]
  rhsNonContracting := [2]
  lhsBatch := [0]
  rhsBatch := [0]
  wf := dot_S8x2048x512_S8x2048x1024_S8x512x1024_1_1_2_2_0_0_wf

class Facts : Prop extends Facts₀ where

variable [Facts]
-- ==== Proof.AttnSpec.lean ====
/-
  Masked dot-product attention of a batch of decoder rows over encoder rows, written once as mathematics over the
  extended reals: for one batch, `E t k` the encoder rows (2048 of width 1024), `q k` one decoder row and `β t` the additive
  mask term, the logit of position `t` is `(∑ k, q k · E t k) + β t`; the softmax over `t` subtracts the largest logit,
  exponentiates, and multiplies by the reciprocal of the total mass; the context is the probability-weighted sum of the
  encoder rows. `scores` and `context` read these off the three argument arrays index by index.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The f32 word of `1.0`. -/
def one : EReal := Ideal.ofBits .f32 0x3F800000#32
/-- The f32 word of the mask scale `1e20`. -/
def big : EReal := Ideal.ofBits .f32 0x60AD78EC#32
/-- The f32 word of `-∞`, from which both programs start their running maximum. -/
def negInf : EReal := Ideal.ofBits .f32 0xFF800000#32

section Row

variable (E : Fin 2048 → Fin 1024 → EReal) (q : Fin 1024 → EReal) (β : Fin 2048 → EReal)

/-- The masked logit of encoder position `t` for the decoder row `q`. -/
def logit (t : Fin 2048) : EReal := (∑ k : Fin 1024, q k * E t k) + β t

/-- The largest logit of the row (the running maximum started at `-∞`). -/
def top : EReal := (Finset.univ : Finset (Fin 2048)).fold max negInf (logit E q β)

/-- The unnormalised softmax weight of position `t`. -/
def weight (t : Fin 2048) : EReal := Ideal.exp (logit E q β t - top E q β)

/-- The total mass of the row's weights. -/
def mass : EReal := ∑ t : Fin 2048, weight E q β t

/-- The attention probability of position `t`: its weight times the reciprocal of the mass. -/
def prob (t : Fin 2048) : EReal := weight E q β t * Ideal.div one (mass E q β)

/-- Coordinate `d` of the context vector: the encoder rows averaged by the probabilities. -/
def mix (d : Fin 1024) : EReal := ∑ t : Fin 2048, prob E q β t * E t d

end Row

/-! ## Read off the argument arrays -/

/-- The encoder rows of batch `b`. -/
def encRows (x0 : (⟨3, ![8, 2048, 1024]⟩ : Shape).Idx → EReal) (b : Fin 8) : Fin 2048 → Fin 1024 → EReal :=
  fun t k => x0 (ix3 b t k)

/-- Decoder row `u` of batch `b`. -/
def decRow (x2 : (⟨3, ![8, 512, 1024]⟩ : Shape).Idx → EReal) (b : Fin 8) (u : Fin 512) : Fin 1024 → EReal :=
  fun k => x2 (ix3 b u k)

/-- The additive mask term of batch `b`: `(mask − 1) · 1e20`, zero where the mask is one. -/
def bias (x1 : (⟨2, ![8, 2048]⟩ : Shape).Idx → BitVec 32) (b : Fin 8) : Fin 2048 → EReal :=
  fun t => ((((x1 (ix2 b t)).toInt : ℝ) : EReal) - one) * big

/-- The attention probabilities as an array indexed (batch, encoder position, decoder position). -/
def scores (x0 : (⟨3, ![8, 2048, 1024]⟩ : Shape).Idx → EReal) (x1 : (⟨2, ![8, 2048]⟩ : Shape).Idx → BitVec 32)
    (x2 : (⟨3, ![8, 512, 1024]⟩ : Shape).Idx → EReal) : (⟨3, ![8, 2048, 512]⟩ : Shape).Idx → EReal :=
  fun i => prob (encRows x0 (i 0)) (decRow x2 (i 0) (i 2)) (bias x1 (i 0)) (i 1)

/-- The context vectors as an array indexed (batch, decoder position, feature). -/
def context (x0 : (⟨3, ![8, 2048, 1024]⟩ : Shape).Idx → EReal) (x1 : (⟨2, ![8, 2048]⟩ : Shape).Idx → BitVec 32)
    (x2 : (⟨3, ![8, 512, 1024]⟩ : Shape).Idx → EReal) : (⟨3, ![8, 512, 1024]⟩ : Shape).Idx → EReal :=
  fun i => mix (encRows x0 (i 0)) (decRow x2 (i 0) (i 1)) (bias x1 (i 0)) (i 2)

end Cert.Attn

end
-- ==== Proof.LibColumn.lean ====
/-
  Two readings of the "keep the reduced axis" column forms. A vector of length `a` cast to an `[a, 1]` column holds,
  at `(i, 0)`, the vector's entry `i`; an `[a, 1]` column broadcast to `[a, b]` holds, at `(i, j)`, the column's entry
  of row `i`. Stated for any element type and any extents, at explicit coordinates.
-/
import Idealize.ShloMosaic.Lib.ValueIdx
import Idealize.ShloMosaic.Lib.Pipeline.Value
import Idealize.ShloMosaic.Lib.ValueLayout

noncomputable section

namespace Cert.LibColumn

open Idealize.ShloMosaic Idealize.ShloMosaic.ValueIdx

/-- An `[a]` array cast to the column `[a, 1]` reads, at `(i, z)`, the operand at `i`, whatever the unit coordinate `z`. -/
theorem shapeCast_a_a1_apply {α : Type} {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- An `[a, 1]` column broadcast to `[a, b]` reads, at `(i, j)`, the column's entry of row `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn

end
-- ==== Proof.KernelRow.lean ====
/-
  The kernel body's two stored values read at an index. Each of the two values is one term over the three loaded blocks
  (the encoder rows, the decoder rows, the mask row): a product of the decoder rows with the encoder rows contracted over
  the feature axis, the mask row added down the rows, each row's maximum subtracted, the exponential, each row's sum, its
  reciprocal, the product; then those probabilities multiplied into the encoder rows, contracted over the positions.
  Read one operation at a time at explicit coordinates, these are the operations of the specification in the same
  order, so no algebra enters: the stored probability at `(u, t)` is `Cert.Attn.prob` and the stored context at
  `(0, u, d)` is `Cert.Attn.mix` of the blocks' rows.
-/
import proofs.«114877_j1580547965480_2_alg».proof.Proof.Gen.KernelIdeal.Skeleton
import proofs.«114877_j1580547965480_2_alg».proof.Proof.AttnSpec
import proofs.«114877_j1580547965480_2_alg».proof.Proof.LibColumn
import Idealize.ShloMosaic.Lib.ValueIdx
import Idealize.ShloMosaic.Lib.Pipeline.Value
import Idealize.ShloMosaic.Lib.ValueLayout
import Idealize.ShloMosaic.PureOps.Ideal.Laws

set_option synthInstance.maxSize 4096

noncomputable section

namespace Cert.KernelIdeal.Row

open Cert.KernelIdeal Cert.KernelIdeal.Gen Idealize.ShloMosaic Idealize.ShloMosaic.ValueIdx Cert.LibColumn

/-! ## The first product: decoder rows against encoder rows, contracted over the feature axis -/

/-- The first product's dimension numbers: both operands contract their feature axis. -/
abbrev D1 : DotDims S256x1024 S2048x1024 S256x2048 := dot_S256x1024_S2048x1024_S256x2048_1_1_0_0_n_n

theorem D1_lhs0 (j : S256x2048.Idx) (q : D1.contr.Idx) : (D1.lhsIdx j q 0).val = (j 0).val := by
  unfold DotDims.lhsIdx
  rw [dif_neg (show ¬(0 : Fin S256x1024.rank) ∈ D1.lhsBatch by decide),
    dif_pos (show (0 : Fin S256x1024.rank) ∈ D1.lhsNonContracting by decide)]
  rfl
theorem D1_lhs1 (j : S256x2048.Idx) (q : D1.contr.Idx) : (D1.lhsIdx j q 1).val = (q ⟨0, by decide⟩).val :=
  D1.lhsIdx_val_of_single rfl j q
theorem D1_rhs0 (j : S256x2048.Idx) (q : D1.contr.Idx) : (D1.rhsIdx j q 0).val = (j 1).val := by
  unfold DotDims.rhsIdx
  rw [dif_neg (show ¬(0 : Fin S2048x1024.rank) ∈ D1.rhsBatch by decide),
    dif_pos (show (0 : Fin S2048x1024.rank) ∈ D1.rhsNonContracting by decide)]
  rfl
theorem D1_rhs1 (j : S256x2048.Idx) (q : D1.contr.Idx) : (D1.rhsIdx j q 1).val = (q ⟨0, by decide⟩).val :=
  D1.rhsIdx_val_of_single rfl j q

/-- The first product into the zero accumulator, read at `(u, t)`: the sum over the feature axis `k` of row `u` of
    the left operand times row `t` of the right one. -/
theorem matmul1_apply (A : FVec Ideal S256x1024 .bf16) (B : FVec Ideal S2048x1024 .bf16) (u : Fin 256) (t : Fin 2048) :
    matmul D1 none A B (constant (F := Ideal) S256x2048 .f32 0x00000000#32) (ix2 u t)
      = ∑ k : Fin 1024, A (ix2 u k) * B (ix2 t k) := by
  refine (Ideal.matmul_constant_zero_apply D1 none A B (ix2 u t)).trans ?_
  rw [← Equiv.sum_comp (contrEquiv1 D1 1024 rfl rfl).symm]
  refine Finset.sum_congr rfl fun k _ => ?_
  have hk := contrEquiv1_symm_val D1 1024 rfl rfl k
  have el : D1.lhsIdx (ix2 u t) ((contrEquiv1 D1 1024 rfl rfl).symm k) = ix2 u k := funext fun a => Fin.ext (by
    match a with
    | ⟨0, _⟩ => exact D1_lhs0 _ _
    | ⟨1, _⟩ => exact (D1_lhs1 _ _).trans hk)
  have er : D1.rhsIdx (ix2 u t) ((contrEquiv1 D1 1024 rfl rfl).symm k) = ix2 t k := funext fun a => Fin.ext (by
    match a with
    | ⟨0, _⟩ => exact D1_rhs0 _ _
    | ⟨1, _⟩ => exact (D1_rhs1 _ _).trans hk)
  rw [el, er]

/-! ## The second product: probabilities against encoder rows, contracted over the positions -/

/-- The second product's dimension numbers: the left operand contracts its position axis (its columns), the right
    one its position axis (its rows). -/
abbrev D2 : DotDims S256x2048 S2048x1024 S256x1024 := dot_S256x2048_S2048x1024_S256x1024_1_0_0_1_n_n

theorem D2_lhs0 (j : S256x1024.Idx) (q : D2.contr.Idx) : (D2.lhsIdx j q 0).val = (j 0).val := by
  unfold DotDims.lhsIdx
  rw [dif_neg (show ¬(0 : Fin S256x2048.rank) ∈ D2.lhsBatch by decide),
    dif_pos (show (0 : Fin S256x2048.rank) ∈ D2.lhsNonContracting by decide)]
  rfl
theorem D2_lhs1 (j : S256x1024.Idx) (q : D2.contr.Idx) : (D2.lhsIdx j q 1).val = (q ⟨0, by decide⟩).val :=
  D2.lhsIdx_val_of_single rfl j q
theorem D2_rhs0 (j : S256x1024.Idx) (q : D2.contr.Idx) : (D2.rhsIdx j q 0).val = (q ⟨0, by decide⟩).val :=
  D2.rhsIdx_val_of_single rfl j q
theorem D2_rhs1 (j : S256x1024.Idx) (q : D2.contr.Idx) : (D2.rhsIdx j q 1).val = (j 1).val := by
  unfold DotDims.rhsIdx
  rw [dif_neg (show ¬(1 : Fin S2048x1024.rank) ∈ D2.rhsBatch by decide),
    dif_pos (show (1 : Fin S2048x1024.rank) ∈ D2.rhsNonContracting by decide)]
  rfl

/-- The second product into the zero accumulator, read at `(u, d)`: the sum over the positions `t` of the left
    operand at `(u, t)` times the right one at `(t, d)`. -/
theorem matmul2_apply (A : FVec Ideal S256x2048 .bf16) (B : FVec Ideal S2048x1024 .bf16) (u : Fin 256) (d : Fin 1024) :
    matmul D2 none A B (constant (F := Ideal) S256x1024 .f32 0x00000000#32) (ix2 u d)
      = ∑ t : Fin 2048, A (ix2 u t) * B (ix2 t d) := by
  refine (Ideal.matmul_constant_zero_apply D2 none A B (ix2 u d)).trans ?_
  rw [← Equiv.sum_comp (contrEquiv1 D2 2048 rfl rfl).symm]
  refine Finset.sum_congr rfl fun t _ => ?_
  have ht := contrEquiv1_symm_val D2 2048 rfl rfl t
  have el : D2.lhsIdx (ix2 u d) ((contrEquiv1 D2 2048 rfl rfl).symm t) = ix2 u t := funext fun a => Fin.ext (by
    match a with
    | ⟨0, _⟩ => exact D2_lhs0 _ _
    | ⟨1, _⟩ => exact (D2_lhs1 _ _).trans ht)
  have er : D2.rhsIdx (ix2 u d) ((contrEquiv1 D2 2048 rfl rfl).symm t) = ix2 t d := funext fun a => Fin.ext (by
    match a with
    | ⟨0, _⟩ => exact (D2_rhs0 _ _).trans ht
    | ⟨1, _⟩ => exact D2_rhs1 _ _)
  rw [el, er]

/-! ## The loaded blocks as matrices -/

/-- The encoder block as a `[2048, 1024]` matrix (a change of format is the identity) reads the block at `(0, t, k)`. -/
theorem enc_apply (P0 : Vec Ideal S1x2048x1024 .f32) (t : Fin 2048) (k : Fin 1024) :
    k0_pay1 (F := Ideal) P0 (ix2 t k) = P0 (ix3 (0 : Fin 1) t k) := by
  unfold k0_pay1
  exact shapeCast_1ab_ab_apply P0 _ t k

/-- The `[256, 2048]` logits as the kernel forms them: the first product plus the mask row spread down the rows. -/
def logitV (P0 : Vec Ideal S1x2048x1024 .f32) (P1 : Vec Ideal S1x256x1024 .f32) (P2 : Vec Ideal S1x1x2048 .f32) :
    FVec Ideal S256x2048 .f32 :=
  addf (matmul D1 none (truncf .bf16 (shapeCast S256x1024 P1 shapeCasts_S1x256x1024_S256x1024) bitsLt_bf16_f32)
      (k0_pay1 P0) (constant S256x2048 .f32 0x00000000#32))
    (broadcastTo S256x2048 (shapeCast S1x2048 P2 shapeCasts_S1x1x2048_S1x2048) broadcasts_S1x2048_S256x2048)

/-- The kernel's logit at `(u, t)` is the specification's for decoder row `u` and position `t`. -/
theorem logitV_apply (P0 : Vec Ideal S1x2048x1024 .f32) (P1 : Vec Ideal S1x256x1024 .f32) (P2 : Vec Ideal S1x1x2048 .f32)
    (u : Fin 256) (t : Fin 2048) :
    logitV P0 P1 P2 (ix2 u t)
      = Cert.Attn.logit (fun t k => P0 (ix3 0 t k)) (fun k => P1 (ix3 0 u k)) (fun t => P2 (ix3 0 0 t)) t := by
  unfold logitV Cert.Attn.logit
  refine (addf_apply _ _ _).trans ?_
  refine congrArg₂ (· + ·) ((matmul1_apply _ _ u t).trans (Finset.sum_congr rfl fun k _ => ?_)) ?_
  · refine congrArg₂ (· * ·) ?_ (enc_apply P0 t k)
    exact shapeCast_1ab_ab_apply P1 _ u k
  · exact (broadcastTo_1b_ab_apply _ _ u t).trans (shapeCast_1ab_ab_apply P2 _ (0 : Fin 1) t)

/-! ## The softmax along each row of a `[256, 2048]` matrix, one operation at a time -/

section Rows
variable (L : FVec Ideal S256x2048 .f32)

/-- Each row's maximum, the running maximum started at `-∞`. -/
def rowMaxV : FVec Ideal S256 .f32 :=
  multiReduction (F := Ideal) .maximumf [1] S256 L 0xFF800000#32 reduces_S256x2048_S256 (.inl rfl) rfl

/-- The exponential of each entry less its row's maximum. -/
def expV : FVec Ideal S256x2048 .f32 :=
  exp (subf L (broadcastTo S256x2048 (shapeCast S256x1 (rowMaxV L) shapeCasts_S256_S256x1) broadcasts_S256x1_S256x2048))

/-- Each row's sum of those exponentials. -/
def rowSumV : FVec Ideal S256 .f32 :=
  multiReduction (F := Ideal) .add [1] S256 (expV L) 0x00000000#32 reduces_S256x2048_S256 (.inl rfl) rfl

/-- One over each row's sum, as a column. -/
def recipV : FVec Ideal S256x1 .f32 :=
  divf (broadcast S256x1 (Scalar.ofBits (F := Ideal) .f32 0x3F800000#32)) (shapeCast S256x1 (rowSumV L) shapeCasts_S256_S256x1)

/-- The exponentials scaled by their row's reciprocal sum. -/
def probV : FVec Ideal S256x2048 .f32 :=
  mulf (expV L) (broadcastTo S256x2048 (recipV L) broadcasts_S256x1_S256x2048)

/-- Row `u`'s maximum is the fold of `max` from `-∞` over the row's entries. -/
theorem rowMaxV_apply (u : Fin 256) :
    rowMaxV L (ix1 u) = (Finset.univ : Finset (Fin 2048)).fold max Cert.Attn.negInf (fun t => L (ix2 u t)) := by
  unfold rowMaxV
  refine (Ideal.multiReduction_maximumf_single L _ reduces_S256x2048_S256 _ _ (ix1 u)).trans ?_
  show (Finset.univ : Finset (Fin 2048)).fold max (Ideal.ofBits .f32 0xFF800000#32)
      (fun t => L (reduces_S256x2048_S256.lift (ix1 u) t)) = _
  unfold Cert.Attn.negInf
  refine congrArg (fun f => (Finset.univ : Finset (Fin 2048)).fold max (Ideal.ofBits .f32 0xFF800000#32) f)
    (funext fun t => congrArg L (funext fun a => Fin.ext ?_))
  match a with
  | ⟨0, _⟩ => rfl
  | ⟨1, _⟩ => rfl

/-- An exponential at `(u, t)`: of the entry less row `u`'s maximum. -/
theorem expV_apply (u : Fin 256) (t : Fin 2048) :
    expV L (ix2 u t)
      = Ideal.exp (L (ix2 u t) - (Finset.univ : Finset (Fin 2048)).fold max Cert.Attn.negInf (fun t => L (ix2 u t))) := by
  unfold expV
  show Ideal.exp (L (ix2 u t) - broadcastTo S256x2048 (shapeCast S256x1 (rowMaxV L) _) _ (ix2 u t)) = _
  rw [broadcastTo_a1_ab_apply, shapeCast_a_a1_apply, rowMaxV_apply]

/-- Row `u`'s sum is the sum of the row's exponentials. -/
theorem rowSumV_apply (u : Fin 256) : rowSumV L (ix1 u) = ∑ t : Fin 2048, expV L (ix2 u t) := by
  unfold rowSumV
  refine (Ideal.multiReduction_add_single (expV L) _ reduces_S256x2048_S256 _ _ (ix1 u)).trans ?_
  show ∑ t : Fin 2048, expV L (reduces_S256x2048_S256.lift (ix1 u) t) = _
  refine Finset.sum_congr rfl fun t _ => congrArg (expV L) (funext fun a => Fin.ext ?_)
  match a with
  | ⟨0, _⟩ => rfl
  | ⟨1, _⟩ => rfl

/-- The reciprocal column at row `u`: `1.0` divided by the row's sum. -/
theorem recipV_apply (u : Fin 256) :
    recipV L (ix2 u (0 : Fin 1)) = Ideal.div Cert.Attn.one (∑ t : Fin 2048, expV L (ix2 u t)) := by
  unfold recipV
  refine (divf_apply _ _ _).trans ?_
  rw [shapeCast_a_a1_apply, rowSumV_apply]
  rfl

/-- A probability at `(u, t)`: the exponential times the reciprocal of its row's sum. -/
theorem probV_apply (u : Fin 256) (t : Fin 2048) :
    probV L (ix2 u t) = expV L (ix2 u t) * Ideal.div Cert.Attn.one (∑ t : Fin 2048, expV L (ix2 u t)) := by
  unfold probV
  refine (mulf_apply _ _ _).trans ?_
  rw [broadcastTo_a1_ab_apply, recipV_apply]

end Rows

/-! ## The two stored values -/

/-- The kernel's probabilities are the row softmax of its logits: the same operations in the same order. -/
theorem pay2_eq (P0 : Vec Ideal S1x2048x1024 .f32) (P1 : Vec Ideal S1x256x1024 .f32) (P2 : Vec Ideal S1x1x2048 .f32) :
    k0_pay2 (F := Ideal) P0 P1 P2 = probV (logitV P0 P1 P2) := rfl

/-- The stored probability block at `(u, t)` is the specification's probability of position `t` for the encoder rows,
    decoder row `u` and mask row of the loaded blocks. -/
theorem pay2_apply (P0 : Vec Ideal S1x2048x1024 .f32) (P1 : Vec Ideal S1x256x1024 .f32) (P2 : Vec Ideal S1x1x2048 .f32)
    (u : Fin 256) (t : Fin 2048) :
    k0_pay2 (F := Ideal) P0 P1 P2 (ix2 u t)
      = Cert.Attn.prob (fun t k => P0 (ix3 0 t k)) (fun k => P1 (ix3 0 u k)) (fun t => P2 (ix3 0 0 t)) t := by
  rw [pay2_eq, probV_apply]
  simp only [expV_apply, logitV_apply]
  rfl

/-- The stored context block at `(0, u, d)` is the specification's context coordinate `d` for the same rows: the
    probabilities of row `u` against column `d` of the encoder rows. -/
theorem pay3_apply (P0 : Vec Ideal S1x2048x1024 .f32) (P1 : Vec Ideal S1x256x1024 .f32) (P2 : Vec Ideal S1x1x2048 .f32)
    (u : Fin 256) (d : Fin 1024) :
    k0_pay3 (F := Ideal) P0 P1 P2 (ix3 0 u d)
      = Cert.Attn.mix (fun t k => P0 (ix3 0 t k)) (fun k => P1 (ix3 0 u k)) (fun t => P2 (ix3 0 0 t)) d := by
  unfold k0_pay3 Cert.Attn.mix
  refine (shapeCast_ab_1ab_apply _ _ (0 : Fin 1) u d).trans ?_
  refine (matmul2_apply _ _ u d).trans ?_
  refine Finset.sum_congr rfl fun t _ => ?_
  exact congrArg₂ (· * ·) (pay2_apply P0 P1 P2 u t) (enc_apply P0 t d)

end Cert.KernelIdeal.Row

end
-- ==== Proof.KernelWhole.lean ====
/-
  The kernel's two result arrays as functions of its arguments. One grid point (batch `b`, decoder tile `j`) loads the
  2048 encoder rows of batch `b`, decoder rows `256·j … 256·j + 255` of that batch and the batch's mask term (computed
  before the call from the integer mask), and writes back a [256, 1024] block of context vectors and a [2048, 256] block of
  attention probabilities, the latter transposed. Read at an index, each block is the specification at the array index
  above it; the blocks of the sixteen grid points tile both arrays; so after the run the context array is
  `Attn.context` and the score array `Attn.scores` of the three argument arrays.
-/
import proofs.«114877_j1580547965480_2_alg».proof.Proof.Gen.KernelIdeal.Value
import proofs.«114877_j1580547965480_2_alg».proof.Proof.KernelRow
import Idealize.ShloMosaic.Lib.ValueIdx
import Idealize.ShloMosaic.Lib.Pipeline.Value
import Idealize.ShloMosaic.Lib.StableHlo.Run

noncomputable section

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The mask term the region finds -/

/-- A block is loaded and stored whole: every access starts at the block's origin. -/
theorem hz3 : (![0, 0, 0] : Fin 3 → Nat) = fun _ => 0 := funext fun a => by fin_cases a <;> rfl

/-- The mask term as the host computes it before the call. -/
theorem bias_term (c : Dev nD) : (V m c main_v5 : S8x1x2048.Idx → EReal) = mulf (broadcastInDim S8x1x2048 ![0, 2] bcast_S8x2048_S8x1x2048_0_2 (subf (sitofp .f32 (m ((c : Thread nD τ).loc main_arg1))) (broadcastInDim S8x2048 ![] bcast_S_S8x2048 (constant (F := Ideal) S_ .f32 0x3F800000#32)))) (broadcastInDim S8x1x2048 ![] bcast_S_S8x1x2048 (constant (F := Ideal) S_ .f32 0x60AD78EC#32)) := by
  dsimp only [Gen.V, Gen.hostOps0]; after_results

/-- Read at (b, 0, t) it is the specification's mask term. -/
theorem bias_apply (c : Dev nD) (i : S8x1x2048.Idx) (b : Fin 8) (t : Fin 2048) (hb : (i 0).val = b.val) (ht : (i 2).val = t.val) :
    (V m c main_v5 : S8x1x2048.Idx → EReal) i = Cert.Attn.bias (m ((c : Thread nD τ).loc main_arg1)) b t := by
  rw [bias_term]
  show (broadcastInDim S8x1x2048 ![0, 2] bcast_S8x2048_S8x1x2048_0_2 (subf (sitofp .f32 (m ((c : Thread nD τ).loc main_arg1))) (broadcastInDim S8x2048 ![] bcast_S_S8x2048 (constant (F := Ideal) S_ .f32 0x3F800000#32)))) i * (broadcastInDim S8x1x2048 ![] bcast_S_S8x1x2048 (constant (F := Ideal) S_ .f32 0x60AD78EC#32)) i = _
  rw [broadcastInDim_apply _ bcast_S_S8x1x2048 _ i ix0 (fun a => a.elim0),
    broadcastInDim_apply _ bcast_S8x2048_S8x1x2048_0_2 _ i (ix2 b t) (fun a => match a with
      | ⟨0, _⟩ => by show b.val = if (8 : Nat) = 1 then 0 else (i 0).val; rw [if_neg (by decide), hb]
      | ⟨1, _⟩ => by show t.val = if (2048 : Nat) = 1 then 0 else (i 2).val; rw [if_neg (by decide), ht])]
  show ((sitofp (F := Ideal) .f32 (m ((c : Thread nD τ).loc main_arg1))) (ix2 b t) - (broadcastInDim S8x2048 ![] bcast_S_S8x2048 (constant (F := Ideal) S_ .f32 0x3F800000#32)) (ix2 b t)) * _ = _
  rw [broadcastInDim_apply _ bcast_S_S8x2048 _ (ix2 b t) ix0 (fun a => a.elim0)]
  rfl

/-! ## The context array -/

/-- The context block of one grid point, over the loaded blocks as variables: when the three blocks are the encoder rows
    of batch `b`, the decoder rows and the mask term of that batch, the body's stored value at `y` is the context at the
    array index `i` above it. -/
theorem context_block (P0 : Vec Ideal S1x2048x1024 .f32) (P1 : Vec Ideal S1x256x1024 .f32) (P2 : Vec Ideal S1x1x2048 .f32)
    (x0 : FVec Ideal S8x2048x1024 .f32) (x1 : IVec S8x2048 32) (x2 : FVec Ideal S8x512x1024 .f32)
    (b : Fin 8) (y : S1x256x1024.Idx) (i : S8x512x1024.Idx)
    (h0 : ∀ (t : Fin 2048) (k : Fin 1024), P0 (ix3 0 t k) = x0 (ix3 b t k))
    (h1 : ∀ k : Fin 1024, P1 (ix3 0 (y 1) k) = x2 (ix3 b (i 1) k))
    (h2 : ∀ t : Fin 2048, P2 (ix3 0 0 t) = Cert.Attn.bias x1 b t)
    (hi0 : i 0 = b) (hi2 : (i 2).val = (y 2).val) :
    k0_pay3 (F := Ideal) P0 P1 P2 y = Cert.Attn.context x0 x1 x2 i := by
  obtain ⟨z, u, d, rfl⟩ : ∃ (z : Fin 1) (u : Fin 256) (d : Fin 1024), y = ix3 z u d := ⟨y 0, y 1, y 2, eq_ix3 y⟩
  obtain rfl : z = 0 := Subsingleton.elim _ _
  rw [Row.pay3_apply]
  unfold Cert.Attn.context
  have e2 : i 2 = d := Fin.ext hi2
  rw [hi0, e2]
  congr 1
  · funext t k; exact h0 t k
  · funext k; exact h1 k
  · funext t; exact h2 t

/-- The printed index maps, decided once over the sixteen grid points: the encoder and mask windows follow the batch
    coordinate only, the decoder window and the context window move together, the score window puts the decoder tile on its
    last axis. -/
theorem idx_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = win0_3.index t (1 : Fin 3) ∧ win0_1.index t (2 : Fin 3) = 0
    ∧ win0_2.index t (0 : Fin 3) = win0_3.index t (0 : Fin 3) ∧ win0_2.index t (1 : Fin 3) = 0 ∧ win0_2.index t (2 : Fin 3) = 0
    ∧ win0_4.index t (0 : Fin 3) = win0_3.index t (0 : Fin 3) ∧ win0_4.index t (1 : Fin 3) = 0 ∧ win0_4.index t (2 : Fin 3) = win0_3.index t (1 : Fin 3)
    ∧ win0_3.index t (0 : Fin 3) ≤ 7 ∧ win0_3.index t (1 : Fin 3) ≤ 1 ∧ win0_3.index t (2 : Fin 3) = 0 :=
  (by decide +kernel : ∀ t : Fin grid0.N, _)

/-- What grid point `t` writes back to the context array is block `t` of the specification's context. -/
theorem flushed3_eq (c : Dev nD) (t : Fin cfg0.N) :
    (dats m 0 c).flushed 3 t = ((cfg0.win 3).blk t).view.read (Elt Ideal) (Cert.Attn.context (m ((c : Thread nD τ).loc main_arg0)) (m ((c : Thread nD τ).loc main_arg1)) (m ((c : Thread nD τ).loc main_arg2))) := by
  rw [Value.flushed3]
  unfold out0_3
  rw [View.canon_unit_zero hz3]
  simp only [View.ld_unit_zero (S := S1x2048x1024) hz3, View.ld_unit_zero (S := S1x256x1024) hz3, View.ld_unit_zero (S := S1x1x2048) hz3]
  obtain ⟨e00, e01, e02, e10, e11, e12, e20, e21, e22, e40, e41, e42, b0, b1, e32⟩ := idx_facts t
  funext y
  show k0_pay3 (iblk m c 0 t) (iblk m c 1 t) (iblk m c 2 t) y = Cert.Attn.context _ _ _ (((cfg0.win 3).blk t).view.emb y)
  have hy1 : (y 1).val < 256 := (y 1).isLt
  have hy2 : (y 2).val < 1024 := (y 2).isLt
  refine context_block _ _ _ _ _ _ ⟨win0_3.index t (0 : Fin 3), by omega⟩ y _ ?_ ?_ ?_ ?_ ?_
  · intro tt k
    show V m c main_arg0 (((cfg0.win 0).blk t).view.emb (ix3 0 tt k)) = _
    rw [V_main_arg0]
    refine congrArg _ (funext fun a => Fin.ext ?_)
    match a with
    | ⟨0, _⟩ => show win0_0.index t (0 : Fin 3) * 1 + 1 * 0 = win0_3.index t (0 : Fin 3); omega
    | ⟨1, _⟩ => show win0_0.index t (1 : Fin 3) * 2048 + 1 * tt.val = tt.val; omega
    | ⟨2, _⟩ => show win0_0.index t (2 : Fin 3) * 1024 + 1 * k.val = k.val; omega
  · intro k
    show V m c main_arg2 (((cfg0.win 1).blk t).view.emb (ix3 0 (y 1) k)) = _
    rw [V_main_arg2]
    refine congrArg _ (funext fun a => Fin.ext ?_)
    match a with
    | ⟨0, _⟩ => show win0_1.index t (0 : Fin 3) * 1 + 1 * 0 = win0_3.index t (0 : Fin 3); omega
    | ⟨1, _⟩ => show win0_1.index t (1 : Fin 3) * 256 + 1 * (y 1).val = win0_3.index t (1 : Fin 3) * 256 + 1 * (y 1).val; omega
    | ⟨2, _⟩ => show win0_1.index t (2 : Fin 3) * 1024 + 1 * k.val = k.val; omega
  · intro tt
    show V m c main_v5 (((cfg0.win 2).blk t).view.emb (ix3 0 0 tt)) = _
    refine bias_apply m c _ _ tt ?_ ?_
    · show win0_2.index t (0 : Fin 3) * 1 + 1 * 0 = win0_3.index t (0 : Fin 3); omega
    · show win0_2.index t (2 : Fin 3) * 2048 + 1 * tt.val = tt.val; omega
  · apply Fin.ext
    show win0_3.index t (0 : Fin 3) * 1 + 1 * (y 0).val = win0_3.index t (0 : Fin 3)
    have : (y 0).val < 1 := (y 0).isLt
    omega
  · show win0_3.index t (2 : Fin 3) * 1024 + 1 * (y 2).val = (y 2).val; omega

/-- An index of the context array is in point `t`'s block iff each coordinate is in the block's range on its axis. -/
theorem mem_blk3 (t : Fin cfg0.N) (i : S8x512x1024.Idx) :
    i ∈ ((cfg0.win 3).blk t).view.set ↔ ∀ a : Fin 3, win0_3.index t a * S1x256x1024.size a ≤ (i a).val ∧ (i a).val < win0_3.index t a * S1x256x1024.size a + S1x256x1024.size a := by
  show i ∈ ((View.whole main_v6_0).slice (win0_3.rect t)).set ↔ _
  rw [View.set_slice_whole, Rect.mem_set_unit]
  exact Iff.rfl

/-- Every (batch, decoder tile) pair is some grid point's. -/
theorem idx_onto3 : ∀ (q0 : Fin 8) (q1 : Fin 2), ∃ t : Fin cfg0.N, win0_3.index t = ![q0.val, q1.val, 0] :=
  (by decide +kernel : ∀ (q0 : Fin 8) (q1 : Fin 2), ∃ t : Fin grid0.N, win0_3.index t = ![q0.val, q1.val, 0])

/-- The context blocks tile the array: row `r` of batch `b` is in the block of the point (b, r / 256). -/
theorem cover3 (i : S8x512x1024.Idx) : ∃ t : Fin cfg0.N, (cfg0.win 3).flush t = true ∧ i ∈ ((cfg0.win 3).blk t).view.set := by
  have hi0 : (i 0).val < 8 := (i 0).isLt
  have hi1 : (i 1).val < 512 := (i 1).isLt
  have hi2 : (i 2).val < 1024 := (i 2).isLt
  obtain ⟨t, ht⟩ := idx_onto3 ⟨(i 0).val, by omega⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 1024 ≤ (i 2).val ∧ (i 2).val < win0_3.index t (2 : Fin 3) * 1024 + 1024; omega

/-- So the context array ends holding the specification's context. -/
theorem final3 (c : Dev nD) : (dats m 0 c).arrAt 3 cfg0.N = Cert.Attn.context (m ((c : Thread nD τ).loc main_arg0)) (m ((c : Thread nD τ).loc main_arg1)) (m ((c : Thread nD τ).loc main_arg2)) :=
  (dats m 0 c).arrAt_eq_of_cover 3 _ (fun t _ => flushed3_eq m c t) cover3

/-! ## The score array -/

/-- The score block of one grid point, over the loaded blocks as variables: the body stores the transpose of its
    probabilities, so block index `y` = (0, position, decoder row) reads the probability of decoder row `y 2` at
    position `y 1`. -/
theorem scores_block (P0 : Vec Ideal S1x2048x1024 .f32) (P1 : Vec Ideal S1x256x1024 .f32) (P2 : Vec Ideal S1x1x2048 .f32)
    (x0 : FVec Ideal S8x2048x1024 .f32) (x1 : IVec S8x2048 32) (x2 : FVec Ideal S8x512x1024 .f32)
    (b : Fin 8) (p : Fin 2048) (u : Fin 256) (i : S8x2048x512.Idx)
    (h0 : ∀ (t : Fin 2048) (k : Fin 1024), P0 (ix3 0 t k) = x0 (ix3 b t k))
    (h1 : ∀ k : Fin 1024, P1 (ix3 0 u k) = x2 (ix3 b (i 2) k))
    (h2 : ∀ t : Fin 2048, P2 (ix3 0 0 t) = Cert.Attn.bias x1 b t)
    (hi0 : i 0 = b) (hi1 : (i 1).val = p.val) :
    k0_pay2 (F := Ideal) P0 P1 P2 (ix2 u p) = Cert.Attn.scores x0 x1 x2 i := by
  rw [Row.pay2_apply]
  unfold Cert.Attn.scores
  have e1 : i 1 = p := Fin.ext hi1
  rw [hi0, e1]
  congr 1
  · funext t k; exact h0 t k
  · funext k; exact h1 k
  · funext t; exact h2 t

/-- What grid point `t` writes back to the score array is block `t` of the specification's scores. -/
theorem flushed4_eq (c : Dev nD) (t : Fin cfg0.N) :
    (dats m 0 c).flushed 4 t = ((cfg0.win 4).blk t).view.read (Elt Ideal) (Cert.Attn.scores (m ((c : Thread nD τ).loc main_arg0)) (m ((c : Thread nD τ).loc main_arg1)) (m ((c : Thread nD τ).loc main_arg2))) := by
  rw [Value.flushed4]
  unfold out0_4
  simp only [View.ld_unit_zero (S := S1x2048x1024) hz3, View.ld_unit_zero (S := S1x256x1024) hz3, View.ld_unit_zero (S := S1x1x2048) hz3]
  obtain ⟨e00, e01, e02, e10, e11, e12, e20, e21, e22, e40, e41, e42, b0, b1, e32⟩ := idx_facts t
  funext y
  show _ = Cert.Attn.scores _ _ _ (((cfg0.win 4).blk t).view.emb y)
  refine (Value.canon4_eq (F := Ideal) (iblk m c 0 t) (iblk m c 1 t) (iblk m c 2 t) y).trans ?_
  have hy1 : (y 1).val < 2048 := (y 1).isLt
  have hy2 : (y 2).val < 256 := (y 2).isLt
  have ey : Value.ix4_0 y = ix2 (⟨(y 2).val, hy2⟩ : Fin 256) (⟨(y 1).val, hy1⟩ : Fin 2048) :=
    funext fun a => Fin.ext (by match a with | ⟨0, _⟩ => rfl | ⟨1, _⟩ => rfl)
  show k0_pay2 (F := Ideal) (iblk m c 0 t) (iblk m c 1 t) (iblk m c 2 t) (Value.ix4_0 y) = _
  rw [ey]
  refine scores_block _ _ _ _ _ _ ⟨win0_3.index t (0 : Fin 3), by omega⟩ ⟨(y 1).val, hy1⟩ ⟨(y 2).val, hy2⟩ _ ?_ ?_ ?_ ?_ ?_
  · intro tt k
    show V m c main_arg0 (((cfg0.win 0).blk t).view.emb (ix3 0 tt k)) = _
    rw [V_main_arg0]
    refine congrArg _ (funext fun a => Fin.ext ?_)
    match a with
    | ⟨0, _⟩ => show win0_0.index t (0 : Fin 3) * 1 + 1 * 0 = win0_3.index t (0 : Fin 3); omega
    | ⟨1, _⟩ => show win0_0.index t (1 : Fin 3) * 2048 + 1 * tt.val = tt.val; omega
    | ⟨2, _⟩ => show win0_0.index t (2 : Fin 3) * 1024 + 1 * k.val = k.val; omega
  · intro k
    show V m c main_arg2 (((cfg0.win 1).blk t).view.emb (ix3 0 (⟨(y 2).val, hy2⟩ : Fin 256) k)) = _
    rw [V_main_arg2]
    refine congrArg _ (funext fun a => Fin.ext ?_)
    match a with
    | ⟨0, _⟩ => show win0_1.index t (0 : Fin 3) * 1 + 1 * 0 = win0_3.index t (0 : Fin 3); omega
    | ⟨1, _⟩ => show win0_1.index t (1 : Fin 3) * 256 + 1 * (y 2).val = win0_4.index t (2 : Fin 3) * 256 + 1 * (y 2).val; omega
    | ⟨2, _⟩ => show win0_1.index t (2 : Fin 3) * 1024 + 1 * k.val = k.val; omega
  · intro tt
    show V m c main_v5 (((cfg0.win 2).blk t).view.emb (ix3 0 0 tt)) = _
    refine bias_apply m c _ _ tt ?_ ?_
    · show win0_2.index t (0 : Fin 3) * 1 + 1 * 0 = win0_3.index t (0 : Fin 3); omega
    · show win0_2.index t (2 : Fin 3) * 2048 + 1 * tt.val = tt.val; omega
  · apply Fin.ext
    show win0_4.index t (0 : Fin 3) * 1 + 1 * (y 0).val = win0_3.index t (0 : Fin 3)
    have : (y 0).val < 1 := (y 0).isLt
    omega
  · show win0_4.index t (1 : Fin 3) * 2048 + 1 * (y 1).val = (y 1).val; omega

/-- An index of the score array is in point `t`'s block iff each coordinate is in the block's range on its axis. -/
theorem mem_blk4 (t : Fin cfg0.N) (i : S8x2048x512.Idx) :
    i ∈ ((cfg0.win 4).blk t).view.set ↔ ∀ a : Fin 3, win0_4.index t a * S1x2048x256.size a ≤ (i a).val ∧ (i a).val < win0_4.index t a * S1x2048x256.size a + S1x2048x256.size a := by
  show i ∈ ((View.whole main_v6_1).slice (win0_4.rect t)).set ↔ _
  rw [View.set_slice_whole, Rect.mem_set_unit]
  exact Iff.rfl

/-- Every (batch, decoder tile) pair is some grid point's, on the score array's first and last axes. -/
theorem idx_onto4 : ∀ (q0 : Fin 8) (q1 : Fin 2), ∃ t : Fin cfg0.N, win0_4.index t = ![q0.val, 0, q1.val] :=
  (by decide +kernel : ∀ (q0 : Fin 8) (q1 : Fin 2), ∃ t : Fin grid0.N, win0_4.index t = ![q0.val, 0, q1.val])

/-- The score blocks tile the array: decoder column `u` of batch `b` is in the block of the point (b, u / 256). -/
theorem cover4 (i : S8x2048x512.Idx) : ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 512 := (i 2).isLt
  obtain ⟨t, ht⟩ := idx_onto4 ⟨(i 0).val, by omega⟩ ⟨(i 2).val / 256, by omega⟩
  have q0 : win0_4.index t (0 : Fin 3) = (i 0).val := congrFun ht 0
  have q1 : win0_4.index t (1 : Fin 3) = 0 := congrFun ht 1
  have q2 : win0_4.index t (2 : Fin 3) = (i 2).val / 256 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 256 ≤ (i 2).val ∧ (i 2).val < win0_4.index t (2 : Fin 3) * 256 + 256; omega

/-- So the score array ends holding the specification's scores. -/
theorem final4 (c : Dev nD) : (dats m 0 c).arrAt 4 cfg0.N = Cert.Attn.scores (m ((c : Thread nD τ).loc main_arg0)) (m ((c : Thread nD τ).loc main_arg1)) (m ((c : Thread nD τ).loc main_arg2)) :=
  (dats m 0 c).arrAt_eq_of_cover 4 _ (fun t _ => flushed4_eq m c t) cover4

/-! ## The run -/

/-- The kernel's run, read: both result arrays at the specification of the argument arrays, the arguments unchanged. -/
theorem run : θ_run defs (onTc (τ := τ) (main (F := Ideal))) ⟨m, fun _ => 0, ρ⟩ fun r => ∀ c : Dev nD,
      r.2.mem ((c : Thread nD τ).loc main_v6_0) = Cert.Attn.context (m ((c : Thread nD τ).loc main_arg0)) (m ((c : Thread nD τ).loc main_arg1)) (m ((c : Thread nD τ).loc main_arg2))
      ∧ r.2.mem ((c : Thread nD τ).loc main_v6_1) = Cert.Attn.scores (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Value.run_blocks m ρ)

end Cert.KernelIdeal.Whole

end
-- ==== Proof.AttnAlg.lean ====
/-
  The laws of the extended reals that join the two spellings of masked softmax attention: the three f32 words
  (1, 1e20, -∞) as extended reals; the mask term written as `+ (a − 1)·c` or as `− (1 − a)·c`; a running maximum started
  at `-∞`; the mass of a row of finite logits is not zero, so dividing a weight by the mass is multiplying it by the
  reciprocal of the mass.
-/
import proofs.«114877_j1580547965480_2_alg».proof.Proof.AttnSpec

noncomputable section

namespace Cert.Attn

open Idealize.ShloMosaic

/-- The word `0x3F800000` is the real number one: sign 0, exponent field 127 (the bias), fraction 0, so the value is
    `2^23 · 2^(-23)`. -/
theorem one_eq : one = ((1 : ℝ) : EReal) := by
  unfold one
  simp [Ideal.ofBits, Ideal.ieee]
  rw [← EReal.coe_mul, ← EReal.coe_one]
  congr 1
  norm_num

/-- The word `0x60AD78EC` (1e20 rounded to f32) is a finite real: its exponent field is 193, neither all ones nor
    zero, so it denotes a normal number. -/
theorem big_real : ∃ r : ℝ, big = (r : EReal) := by
  unfold big Ideal.ofBits Ideal.ieee
  simp only []
  rw [if_neg (by decide), if_neg (by decide)]
  exact ⟨_, rfl⟩

/-- The word `0xFF800000` is `-∞`: sign 1, exponent field all ones, fraction 0. -/
theorem negInf_eq : negInf = ⊥ := by
  unfold negInf
  simp [Ideal.ofBits, Ideal.ieee]

/-- A running maximum started at `-∞` joined with `-∞` once more is itself. -/
theorem max_negInf (x : EReal) : max negInf x = x := by
  rw [negInf_eq]; exact max_eq_right bot_le

/-- The mask term, either way round: subtracting `(1 − a)·c` is adding `(a − 1)·c`, for a real mask value `a` and the
    finite scale, whatever the extended real `x` it is applied to; the products inside the sum commute. -/
theorem logit_sub_eq (e q : Fin 1024 → EReal) (a : ℝ) :
    (∑ k : Fin 1024, e k * q k) - (one - (a : EReal)) * big = (∑ k : Fin 1024, q k * e k) + ((a : EReal) - one) * big := by
  obtain ⟨c, hc⟩ := big_real
  have hs : (∑ k : Fin 1024, e k * q k) = ∑ k : Fin 1024, q k * e k := Finset.sum_congr rfl fun k _ => mul_comm _ _
  -- both mask terms are coercions of reals, and `-((1 - a) * c) = (a - 1) * c` there
  rw [hs, one_eq, hc, sub_eq_add_neg, ← EReal.coe_sub, ← EReal.coe_sub, ← EReal.coe_mul, ← EReal.coe_mul, ← EReal.coe_neg]
  congr 2
  ring

/-- A finite sum of reals is a real. -/
private theorem sum_real {ι : Type} (s : Finset ι) (f : ι → EReal) (hf : ∀ k, ∃ r : ℝ, f k = (r : EReal)) :
    ∃ r : ℝ, ∑ k ∈ s, f k = (r : EReal) := by
  classical
  induction s using Finset.induction_on with
  | empty => exact ⟨0, by rw [Finset.sum_empty, EReal.coe_zero]⟩
  | insert a s ha ih =>
    obtain ⟨r, hr⟩ := ih
    obtain ⟨x, hx⟩ := hf a
    exact ⟨x + r, by rw [Finset.sum_insert ha, hr, hx, EReal.coe_add]⟩

/-- A finite sum of products of reals, plus a real, is a real: the logits of finite rows are finite. -/
theorem logit_real (E : Fin 2048 → Fin 1024 → EReal) (q : Fin 1024 → EReal) (β : Fin 2048 → EReal)
    (hE : ∀ t k, ∃ r : ℝ, E t k = (r : EReal)) (hq : ∀ k, ∃ r : ℝ, q k = (r : EReal)) (hβ : ∀ t, ∃ r : ℝ, β t = (r : EReal))
    (t : Fin 2048) : ∃ r : ℝ, logit E q β t = (r : EReal) := by
  obtain ⟨b, hb⟩ := hβ t
  obtain ⟨s, hs⟩ := sum_real Finset.univ (fun k => q k * E t k) (fun k => by
    obtain ⟨x, hx⟩ := hq k
    obtain ⟨y, hy⟩ := hE t k
    exact ⟨x * y, by rw [hx, hy, EReal.coe_mul]⟩)
  exact ⟨s + b, by unfold logit; rw [hs, hb, EReal.coe_add]⟩

/-- The mask term of any integer mask is a real. -/
theorem bias_real (x1 : (⟨2, ![8, 2048]⟩ : Shape).Idx → BitVec 32) (b : Fin 8) (t : Fin 2048) :
    ∃ r : ℝ, bias x1 b t = (r : EReal) := by
  obtain ⟨c, hc⟩ := big_real
  show ∃ r : ℝ, ((((x1 (ValueIdx.ix2 b t)).toInt : ℝ) : EReal) - one) * big = (r : EReal)
  rw [one_eq, hc, ← EReal.coe_sub, ← EReal.coe_mul]
  exact ⟨_, rfl⟩

/-- The exponential of anything but `-∞` is positive. -/
private theorem exp_pos_of_ne_bot (x : EReal) (hx : x ≠ ⊥) : 0 < Ideal.exp x := by
  induction x using EReal.rec with
  | bot => exact absurd rfl hx
  | top => rw [Ideal.exp_top]; exact EReal.zero_lt_top
  | coe r => rw [Ideal.exp_coe]; exact EReal.coe_pos.mpr (Real.exp_pos r)

/-- The mass of a row whose logits are all finite is not zero: every weight is the exponential of a difference of
    reals, which is positive. -/
theorem mass_ne_zero (E : Fin 2048 → Fin 1024 → EReal) (q : Fin 1024 → EReal) (β : Fin 2048 → EReal)
    (h : ∀ t, ∃ r : ℝ, logit E q β t = (r : EReal)) : mass E q β ≠ 0 := by
  -- the largest logit is below `+∞`, since the start `-∞` and every logit are
  have htop : top E q β ≠ ⊤ := by
    have hlt : top E q β < ⊤ := by
      unfold top
      rw [Finset.fold_max_lt]
      refine ⟨by rw [negInf_eq]; exact bot_lt_top, fun t _ => ?_⟩
      obtain ⟨r, hr⟩ := h t
      rw [hr]; exact EReal.coe_lt_top r
    exact hlt.ne
  -- so no difference `logit − top` is `-∞`, and every weight is positive
  have hw : ∀ t, 0 < weight E q β t := by
    intro t
    obtain ⟨r, hr⟩ := h t
    refine exp_pos_of_ne_bot _ ?_
    rw [hr, sub_eq_add_neg, Ne, EReal.add_eq_bot_iff, EReal.neg_eq_bot_iff]
    rintro (h1 | h1)
    · exact EReal.coe_ne_bot r h1
    · exact htop h1
  -- a sum of nonnegative terms is at least any one of them
  have hpos : 0 < ∑ t : Fin 2048, weight E q β t :=
    lt_of_lt_of_le (hw 0) (Finset.single_le_sum (fun t _ => (hw t).le) (Finset.mem_univ 0))
  exact hpos.ne'

/-- Dividing by a nonzero mass is multiplying by its reciprocal. -/
theorem div_eq_mul_div_one (w l : EReal) (hl : l ≠ 0) : Ideal.div w l = w * Ideal.div one l := by
  unfold Ideal.div
  rw [if_neg hl, if_neg hl, one_eq, EReal.coe_one, one_mul]

end Cert.Attn

end
-- ==== Proof.RefValue.lean ====
/-
  The reference computes the specification. Its score array at (b, t, u) is the attention probability of encoder
  position t for decoder row u of batch b, and its context array at (b, u, d) is coordinate d of the
  probability-weighted sum of the encoder rows. The steps follow the softmax: the masked logit, the largest logit of
  a row, the exponential weight, the total mass, the probability, and last the weighted sum.
-/
import proofs.«114877_j1580547965480_2_alg».proof.Proof.Gen.ReferenceIdeal.Read
import proofs.«114877_j1580547965480_2_alg».proof.Proof.AttnAlg

noncomputable section

namespace Cert.ReferenceIdeal.RefValue

open Cert.ReferenceIdeal Cert.ReferenceIdeal.Read Idealize.ShloMosaic Idealize.ShloMosaic.ValueIdx

/-- The masked logit. The reference forms the product sum ∑ k, x0(b,t,k) · x2(b,u,k) and subtracts
    (1 − mask(b,t)) · 1e20, the same for every u; that is the specification's logit
    (∑ k, q k · E t k) + (mask − 1) · 1e20, with the factors of each product and the sign of the mask term turned round. -/
theorem logit_eq (x0 : FVec Ideal S8x2048x1024 .f32) (x1 : IVec S8x2048 32) (x2 : FVec Ideal S8x512x1024 .f32)
    (b : Fin 8) (t : Fin 2048) (u : Fin 512) :
    Read.val_main_v8 (F := Ideal) x0 x1 x2 (ix3 b t u)
      = Cert.Attn.logit (Cert.Attn.encRows x0 b) (Cert.Attn.decRow x2 b u) (Cert.Attn.bias x1 b) t := by
  rw [val_main_v8_apply, val_main_v1_apply, val_main_v7_apply, val_main_v6_apply, val_main_v4_apply, val_main_v3_apply,
    val_main_v5_apply, val_main_v2_apply, val_main_v0_apply, val_main_cst_apply, val_main_cst_0_apply]
  -- the left factor is read at (b, t, k), the right one at (b, u, k), the mask at (b, t)
  have el : ∀ k : Fin 1024, lidx_main_v1 (ix3 b t u) k = ix3 b t k := fun k =>
    funext fun a => Fin.ext (by match a with | ⟨0, _⟩ => rfl | ⟨1, _⟩ => rfl | ⟨2, _⟩ => rfl)
  have er : ∀ k : Fin 1024, ridx_main_v1 (ix3 b t u) k = ix3 b u k := fun k =>
    funext fun a => Fin.ext (by match a with | ⟨0, _⟩ => rfl | ⟨1, _⟩ => rfl | ⟨2, _⟩ => rfl)
  have em : idx_main_v4 (idx_main_v7 (ix3 b t u)) = ix2 b t :=
    funext fun a => Fin.ext (by match a with | ⟨0, _⟩ => rfl | ⟨1, _⟩ => rfl)
  rw [em]
  simp only [el, er]
  exact Cert.Attn.logit_sub_eq (fun k => x0 (ix3 b t k)) (fun k => x2 (ix3 b u k)) ((x1 (ix2 b t)).toInt : ℝ)

/-- The largest logit. The maximum over the encoder positions t, started at -∞, of the array of logits at (b, ·, u)
    is the running maximum of the row's logits: position t of the reduced axis sits at (b, t, u). -/
theorem top_eq (x0 : FVec Ideal S8x2048x1024 .f32) (x1 : IVec S8x2048 32) (x2 : FVec Ideal S8x512x1024 .f32)
    (b : Fin 8) (u : Fin 512) :
    Read.val_main_v9 (F := Ideal) x0 x1 x2 (ix2 b u)
      = Cert.Attn.top (Cert.Attn.encRows x0 b) (Cert.Attn.decRow x2 b u) (Cert.Attn.bias x1 b) := by
  have h : S8x2048x512.Reduces [1] S8x512 := by decide
  unfold val_main_v9
  refine (Host.reduce_eq_fold_single _ _ _ _ h _ _).trans ?_
  have hf : (val_main_v8 (F := Ideal) x0 x1 x2 ∘ h.lift (ix2 b u))
      = Cert.Attn.logit (Cert.Attn.encRows x0 b) (Cert.Attn.decRow x2 b u) (Cert.Attn.bias x1 b) :=
    funext fun t => by
      have e : h.lift (ix2 b u) t = ix3 b t u :=
        funext fun a => Fin.ext (by match a with | ⟨0, _⟩ => rfl | ⟨1, _⟩ => rfl | ⟨2, _⟩ => rfl)
      show val_main_v8 (F := Ideal) x0 x1 x2 (h.lift (ix2 b u) t) = _
      rw [e]
      exact logit_eq x0 x1 x2 b t u
  rw [hf]
  rfl

/-- The weight. The reference joins the largest logit with -∞ once more, which changes nothing, spreads it over
    the positions t, subtracts it from each logit and exponentiates. -/
theorem weight_eq (x0 : FVec Ideal S8x2048x1024 .f32) (x1 : IVec S8x2048 32) (x2 : FVec Ideal S8x512x1024 .f32)
    (b : Fin 8) (t : Fin 2048) (u : Fin 512) :
    Read.val_main_v15 (F := Ideal) x0 x1 x2 (ix3 b t u)
      = Cert.Attn.weight (Cert.Attn.encRows x0 b) (Cert.Attn.decRow x2 b u) (Cert.Attn.bias x1 b) t := by
  rw [val_main_v15_apply, val_main_v14_apply, val_main_v13_apply, val_main_v12_apply, val_main_v11_apply,
    val_main_v10_apply, val_main_cst_2_apply]
  have em : idx_main_v12 (idx_main_v13 (ix3 b t u)) = ix2 b u :=
    funext fun a => Fin.ext (by match a with | ⟨0, _⟩ => rfl | ⟨1, _⟩ => rfl)
  rw [em, logit_eq, top_eq]
  simp only [Ideal.hostUnary_exp_def, Ideal.subf_def, Ideal.maximumf_def, Ideal.ofBits_def]
  unfold Cert.Attn.weight
  rw [show Ideal.ofBits .f32 0xFF800000#32 = Cert.Attn.negInf from rfl, Cert.Attn.max_negInf]

/-- The mass. The sum over the positions t of the weights at (b, t, u), started at zero, is the row's mass. -/
theorem mass_eq (x0 : FVec Ideal S8x2048x1024 .f32) (x1 : IVec S8x2048 32) (x2 : FVec Ideal S8x512x1024 .f32)
    (b : Fin 8) (u : Fin 512) :
    Read.val_main_v16 (F := Ideal) x0 x1 x2 (ix2 b u)
      = Cert.Attn.mass (Cert.Attn.encRows x0 b) (Cert.Attn.decRow x2 b u) (Cert.Attn.bias x1 b) := by
  rw [val_main_v16_apply, val_main_cst_3_apply]
  have ei : ∀ t : Fin 2048, idx_main_v16 (ix2 b u) t = ix3 b t u := fun t =>
    funext fun a => Fin.ext (by match a with | ⟨0, _⟩ => rfl | ⟨1, _⟩ => rfl | ⟨2, _⟩ => rfl)
  simp only [ei, weight_eq]
  rw [Ideal.ofBits_def, Ideal.ofBits_zero_f32, zero_add]
  rfl

/-- The probability. The reference divides each weight by the mass spread over the positions t; the mass of a row
    of finite logits is not zero, so the quotient is the weight times the reciprocal of the mass. The inputs being
    finite is used here, to make the logits finite, and nowhere else. -/
theorem prob_eq (x0 : FVec Ideal S8x2048x1024 .f32) (x1 : IVec S8x2048 32) (x2 : FVec Ideal S8x512x1024 .f32)
    (h0 : ∀ i, ∃ r : ℝ, x0 i = (r : EReal)) (h2 : ∀ i, ∃ r : ℝ, x2 i = (r : EReal))
    (b : Fin 8) (t : Fin 2048) (u : Fin 512) :
    Read.val_main_v19 (F := Ideal) x0 x1 x2 (ix3 b t u)
      = Cert.Attn.prob (Cert.Attn.encRows x0 b) (Cert.Attn.decRow x2 b u) (Cert.Attn.bias x1 b) t := by
  rw [val_main_v19_apply, val_main_v18_apply, val_main_v17_apply]
  have em : idx_main_v17 (idx_main_v18 (ix3 b t u)) = ix2 b u :=
    funext fun a => Fin.ext (by match a with | ⟨0, _⟩ => rfl | ⟨1, _⟩ => rfl)
  rw [em, weight_eq, mass_eq, Ideal.hostDivf_def]
  unfold Cert.Attn.prob
  exact Cert.Attn.div_eq_mul_div_one _ _ (Cert.Attn.mass_ne_zero _ _ _
    (Cert.Attn.logit_real _ _ _ (fun t k => h0 (ix3 b t k)) (fun k => h2 (ix3 b u k)) (Cert.Attn.bias_real x1 b)))

/-- The reference's score array is the specification's, index by index. -/
theorem scores_eq (x0 : FVec Ideal S8x2048x1024 .f32) (x1 : IVec S8x2048 32) (x2 : FVec Ideal S8x512x1024 .f32)
    (h0 : ∀ i, ∃ r : ℝ, x0 i = (r : EReal)) (h2 : ∀ i, ∃ r : ℝ, x2 i = (r : EReal)) :
    Read.val_main_v19 (F := Ideal) x0 x1 x2 = Cert.Attn.scores x0 x1 x2 := by
  funext i
  obtain ⟨b, t, u, rfl⟩ : ∃ (b : Fin 8) (t : Fin 2048) (u : Fin 512), i = ix3 b t u := ⟨i 0, i 1, i 2, eq_ix3 i⟩
  exact prob_eq x0 x1 x2 h0 h2 b t u

/-- The reference's context array is the specification's: at (b, u, d) the sum over the positions t of the
    probability at (b, t, u) times the encoder row's coordinate at (b, t, d). -/
theorem context_eq (x0 : FVec Ideal S8x2048x1024 .f32) (x1 : IVec S8x2048 32) (x2 : FVec Ideal S8x512x1024 .f32)
    (h0 : ∀ i, ∃ r : ℝ, x0 i = (r : EReal)) (h2 : ∀ i, ∃ r : ℝ, x2 i = (r : EReal)) :
    Read.val_main_v20 (F := Ideal) x0 x1 x2 = Cert.Attn.context x0 x1 x2 := by
  funext i
  obtain ⟨b, u, d, rfl⟩ : ∃ (b : Fin 8) (u : Fin 512) (d : Fin 1024), i = ix3 b u d := ⟨i 0, i 1, i 2, eq_ix3 i⟩
  rw [val_main_v20_apply]
  show _ = Cert.Attn.mix (Cert.Attn.encRows x0 b) (Cert.Attn.decRow x2 b u) (Cert.Attn.bias x1 b) d
  unfold Cert.Attn.mix
  refine Finset.sum_congr rfl fun t _ => ?_
  have el : lidx_main_v20 (ix3 b u d) t = ix3 b t u :=
    funext fun a => Fin.ext (by match a with | ⟨0, _⟩ => rfl | ⟨1, _⟩ => rfl | ⟨2, _⟩ => rfl)
  have er : ridx_main_v20 (ix3 b u d) t = ix3 b t d :=
    funext fun a => Fin.ext (by match a with | ⟨0, _⟩ => rfl | ⟨1, _⟩ => rfl | ⟨2, _⟩ => rfl)
  rw [el, er, prob_eq x0 x1 x2 h0 h2 b t u]
  rfl

end Cert.ReferenceIdeal.RefValue

end
-- ==== Proof.FiniteInputs.lean ====
/-
  From the precondition to the finiteness of the inputs. The precondition says `|x| < +∞` of every entry `x` of the two float arrays:
  for each array the comparisons are reduced by `and` over all three axes, started at 1, and the two results are joined by `and`. If
  the result is 1, then both reductions are 1, so every compared element is 1, that is `|x| < +∞` at every entry `x` of
  the two float arrays. On the extended reals `|x| = max x (-x)`, which is `+∞` at both infinities; so every entry is a
  real.
-/
import proofs.«114877_j1580547965480_2_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic

/-- The word `0x7F800000` is `+∞`: sign 0, exponent field all ones, fraction 0. -/
theorem posInf_eq : Ideal.ofBits .f32 0x7F800000#32 = ⊤ := by
  simp [Ideal.ofBits, Ideal.ieee]

/-- An extended real whose absolute value `max x (-x)` is below `+∞` is a real: at `-∞` the negation is `+∞`, at
    `+∞` the element itself is. -/
theorem real_of_abs_lt_top (x : EReal) (h : max x (-x) < ⊤) : ∃ r : ℝ, x = (r : EReal) := by
  induction x using EReal.rec with
  | bot => rw [EReal.neg_bot, max_eq_right bot_le] at h; exact absurd h (lt_irrefl _)
  | top => rw [max_eq_left le_top] at h; exact absurd h (lt_irrefl _)
  | coe r => exact ⟨r, rfl⟩

/-- The element test of the precondition, read at one entry: the comparison `|x| < +∞` answering 1 says the entry is
    a real. -/
theorem real_of_test (x : EReal) (h : Ideal.cmp .olt (max x (-x)) (Ideal.ofBits .f32 0x7F800000#32) = 1#1) :
    ∃ r : ℝ, x = (r : EReal) := by
  rw [posInf_eq] at h
  simp only [Ideal.cmp] at h
  refine real_of_abs_lt_top x ?_
  by_contra hn
  rw [decide_eq_false hn] at h
  exact absurd h (by decide)

/-- The result of a reduction over every axis has one index. -/
instance : Subsingleton Cert.Pre_finite_inputs.S_.Idx := ⟨fun a b => funext fun d => d.elim0⟩

/-- Under the precondition every entry of the two float inputs is a real. -/
theorem real_of_pre [Cert.Pre_finite_inputs.Facts] (a0 : FVec Ideal Cert.Pre_finite_inputs.S8x2048x1024 .f32) (a1 : IVec Cert.Pre_finite_inputs.S8x2048 32)
    (a2 : FVec Ideal Cert.Pre_finite_inputs.S8x512x1024 .f32)
    (h : Cert.Pre_finite_inputs.fn (F := Ideal) a0 a1 a2 = fun _ => 1#1) :
    (∀ i, ∃ r : ℝ, a0 i = (r : EReal)) ∧ (∀ i, ∃ r : ℝ, a2 i = (r : EReal)) := by
  have e := congrFun h ValueIdx.ix0
  dsimp only [Cert.Pre_finite_inputs.fn] at e
  -- the final `and` is 1, so both reductions are
  obtain ⟨e0, e2⟩ := IntOp.andi_eq_one.1 e
  refine ⟨fun i => ?_, fun i => ?_⟩
  · exact real_of_test (a0 i) (Host.reduce_andi_all _ _ _ _ _ e0 i)
  · exact real_of_test (a2 i) (Host.reduce_andi_all _ _ _ _ _ e2 i)

end Cert.Finite

end
-- ==== Proof.lean ====
/-
  The certificate of the masked dot-product attention kernel against its jnp reference. For each batch the kernel
  forms, on decoder tiles of 256 rows, the logits `dec · encᵀ + (mask − 1)·1e20`, a softmax over the 2048 encoder
  positions (largest logit subtracted, exponential, times the reciprocal of the row's mass), the context
  `probabilities · enc`, and stores the probabilities transposed; the reference forms `enc · decᵀ − (1 − mask)·1e20`,
  a softmax over axis 1 written as a quotient by the mass and the context as one batched contraction. Over the extended reals
  the two agree index by index once the inputs are finite: the mask term is the same real either way round, sums and
  products commute, and a quotient by a nonzero mass is the product with its reciprocal — the mass of a row of finite
  logits is positive, which is where the precondition is used. The three frames are the generated ones (the reference's
  frame is its generated run with the result dropped); no rewrite was applied when the kernel was idealized.
-/
import proofs.«114877_j1580547965480_2_alg».proof.Defs
import proofs.«114877_j1580547965480_2_alg».proof.Proof.Gen.Kernel
import proofs.«114877_j1580547965480_2_alg».proof.Proof.Gen.Kernel.Skeleton
import proofs.«114877_j1580547965480_2_alg».proof.Proof.Gen.Kernel.Launch
import proofs.«114877_j1580547965480_2_alg».proof.Proof.Gen.Kernel.Points
import proofs.«114877_j1580547965480_2_alg».proof.Proof.Gen.Kernel.Frame
import proofs.«114877_j1580547965480_2_alg».proof.Proof.Gen.KernelIdeal
import proofs.«114877_j1580547965480_2_alg».proof.Proof.Gen.KernelIdeal.Skeleton
import proofs.«114877_j1580547965480_2_alg».proof.Proof.Gen.KernelIdeal.Launch
import proofs.«114877_j1580547965480_2_alg».proof.Proof.Gen.KernelIdeal.Points
import proofs.«114877_j1580547965480_2_alg».proof.Proof.Gen.KernelIdeal.Frame
import proofs.«114877_j1580547965480_2_alg».proof.Proof.Gen.ReferenceIdeal
import proofs.«114877_j1580547965480_2_alg».proof.Proof.Gen.Pre_finite_inputs
import proofs.«114877_j1580547965480_2_alg».proof.Proof.Gen.KernelIdeal.Value
import proofs.«114877_j1580547965480_2_alg».proof.Proof.Gen.ReferenceIdeal.Run
import proofs.«114877_j1580547965480_2_alg».proof.Proof.Gen.ReferenceIdeal.Read
import proofs.«114877_j1580547965480_2_alg».proof.Proof.KernelWhole
import proofs.«114877_j1580547965480_2_alg».proof.Proof.RefValue
import proofs.«114877_j1580547965480_2_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the context array at `Attn.context` and the score array at `Attn.scores` of the argument
    arrays: the kernel block by block, the reference operation by operation under the finiteness the precondition gives. -/
theorem algebraic : Cert.algebraic_KernelIdeal_ReferenceIdeal := by
  intro m ρ m' ρ' hpre hagree
  refine ⟨fun c => Cert.Attn.context (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)),
    fun c => Cert.Attn.scores (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)),
    Cert.KernelIdeal.Whole.run m ρ, ?_⟩
  refine (θ_run Cert.ReferenceIdeal.defs _ _).mono (fun _ h c => ?_) (Cert.ReferenceIdeal.Value.run (F := Ideal) m' ρ')
  obtain ⟨hfin0, hfin2⟩ := Cert.Finite.real_of_pre _ _ _ (hpre c)
  refine ⟨?_, ?_, (h c).2.2⟩
  · rw [(h c).1, Cert.ReferenceIdeal.Read.val_main_v20_eq, (hagree c).1, (hagree c).2.1, (hagree c).2.2]
    exact Cert.ReferenceIdeal.RefValue.context_eq _ _ _ hfin0 hfin2
  · rw [(h c).2.1, Cert.ReferenceIdeal.Read.val_main_v19_eq, (hagree c).1, (hagree c).2.1, (hagree c).2.2]
    exact Cert.ReferenceIdeal.RefValue.scores_eq _ _ _ hfin0 hfin2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
